-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S8x2 : Shape := ⟨2, ![8, 2]⟩
abbrev S8x8 : Shape := ⟨2, ![8, 8]⟩
abbrev S3x8 : Shape := ⟨2, ![3, 8]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S8x2 : S_.BroadcastsInDim S8x2 (![] : Fin 0 → Fin S8x2.rank)
  reducesTo_S8x2_S_d0_1 : S8x2.ReducesTo [0, 1] S_
  bcast_S_S8x8 : S_.BroadcastsInDim S8x8 (![] : Fin 0 → Fin S8x8.rank)
  reducesTo_S8x8_S_d0_1 : S8x8.ReducesTo [0, 1] S_
  bcast_S_S3x8 : S_.BroadcastsInDim S3x8 (![] : Fin 0 → Fin S3x8.rank)
  reducesTo_S3x8_S_d0_1 : S3x8.ReducesTo [0, 1] S_

variable [Facts]

def fn_part1 {F : FTy → Type} [FloatOps F] (main_v13 : IVec S_ 1) (main_v16 : IVec S3x8 1) : IVec S_ 1 :=
  let main_c_5 : IVec S_ 1 := constantI S_ 1 1#1
  let main_v17 : IVec S_ 1 := (fun x v => Host.reduce IntOp.andi x v reducesTo_S3x8_S_d0_1 h_S_) main_v16 main_c_5
  let main_v18 : IVec S_ 1 := andi main_v13 main_v17
  main_v18

def fn {F : FTy → Type} [FloatOps F] (main_arg0 : FVec F S16777216x2 .f32) (main_arg1 : FVec F S8x2 .f32) (main_arg2 : FVec F S8x8 .f32) (main_arg3 : FVec F S3x8 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_v4 : FVec F S8x2 .f32 := Host.absf main_arg1
  let main_cst_0 : FVec F S_ .f32 := constant S_ .f32 0x7F800000#32
  let main_v5 : FVec F S8x2 .f32 := broadcastInDim S8x2 ![] bcast_S_S8x2 main_cst_0
  let main_v6 : IVec S8x2 1 := cmpf .olt main_v4 main_v5
  let main_c_1 : IVec S_ 1 := constantI S_ 1 1#1
  let main_v7 : IVec S_ 1 := (fun x v => Host.reduce IntOp.andi x v reducesTo_S8x2_S_d0_1 h_S_) main_v6 main_c_1
  let main_v8 : IVec S_ 1 := andi main_v3 main_v7
  let main_v9 : FVec F S8x8 .f32 := Host.absf main_arg2
  let main_cst_2 : FVec F S_ .f32 := constant S_ .f32 0x7F800000#32
  let main_v10 : FVec F S8x8 .f32 := broadcastInDim S8x8 ![] bcast_S_S8x8 main_cst_2
  let main_v11 : IVec S8x8 1 := cmpf .olt main_v9 main_v10
  let main_c_3 : IVec S_ 1 := constantI S_ 1 1#1
  let main_v12 : IVec S_ 1 := (fun x v => Host.reduce IntOp.andi x v reducesTo_S8x8_S_d0_1 h_S_) main_v11 main_c_3
  let main_v13 : IVec S_ 1 := andi main_v8 main_v12
  let main_v14 : FVec F S3x8 .f32 := Host.absf main_arg3
  let main_cst_4 : FVec F S_ .f32 := constant S_ .f32 0x7F800000#32
  let main_v15 : FVec F S3x8 .f32 := broadcastInDim S3x8 ![] bcast_S_S3x8 main_cst_4
  let main_v16 : IVec S3x8 1 := cmpf .olt main_v14 main_v15
  fn_part1 (F := F) main_v13 main_v16
-- ==== Kernel.lean ====
abbrev S16777216x2 : Shape := ⟨2, ![16777216, 2]⟩
abbrev S8x2 : Shape := ⟨2, ![8, 2]⟩
abbrev S8x8 : Shape := ⟨2, ![8, 8]⟩
abbrev S3x8 : Shape := ⟨2, ![3, 8]⟩
abbrev S2x16777216 : Shape := ⟨2, ![2, 16777216]⟩
abbrev S3x16777216 : Shape := ⟨2, ![3, 16777216]⟩
abbrev S2x65536 : Shape := ⟨2, ![2, 65536]⟩
abbrev S3x65536 : Shape := ⟨2, ![3, 65536]⟩
abbrev S1x65536 : Shape := ⟨2, ![1, 65536]⟩
abbrev S8x1 : Shape := ⟨2, ![8, 1]⟩
abbrev S8x65536 : Shape := ⟨2, ![8, 65536]⟩
abbrev S16777216x3 : Shape := ⟨2, ![16777216, 3]⟩

abbrev nBuf : Space → Nat
  | .hbm => 9
  | .vmem => 7
  | .smem => 0
  | _ => 0

abbrev bufTy : (tb : Table) → Fin (tcTables nBuf tb) → BufTy
  | .hbm, ⟨0, _⟩ => ⟨S16777216x2, .f32⟩
  | .hbm, ⟨1, _⟩ => ⟨S8x2, .f32⟩
  | .hbm, ⟨2, _⟩ => ⟨S8x8, .f32⟩
  | .hbm, ⟨3, _⟩ => ⟨S3x8, .f32⟩
  | .hbm, ⟨4, _⟩ => ⟨S2x16777216, .f32⟩
  | .hbm, ⟨5, _⟩ => ⟨S8x8, .bf16⟩
  | .hbm, ⟨6, _⟩ => ⟨S3x8, .bf16⟩
  | .hbm, ⟨7, _⟩ => ⟨S3x16777216, .f32⟩
  | .hbm, ⟨8, _⟩ => ⟨S16777216x3, .f32⟩
  | .local _ .vmem, ⟨0, _⟩ => ⟨S2x65536, .f32⟩
  | .local _ .vmem, ⟨1, _⟩ => ⟨S2x65536, .f32⟩
  | .local _ .vmem, ⟨2, _⟩ => ⟨S8x2, .f32⟩
  | .local _ .vmem, ⟨3, _⟩ => ⟨S8x8, .bf16⟩
  | .local _ .vmem, ⟨4, _⟩ => ⟨S3x8, .bf16⟩
  | .local _ .vmem, ⟨5, _⟩ => ⟨S3x65536, .f32⟩
  | .local _ .vmem, ⟨6, _⟩ => ⟨S3x65536, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16777216x2_S2x16777216_1_0 : S16777216x2.Transposes [1, 0] S2x16777216
  bitsLt_bf16_f32 : FTy.bits .bf16 < FTy.bits .f32
  inb_S8x2_S8x2_0_0 : ∀ a, (![0, 0] : Fin 2 → Nat) a + S8x2.size a ≤ S8x2.size a
  h_S8x2 : 0 < S8x2.numel
  inb_S2x65536_S1x65536_0_0 : ∀ a, (![0, 0] : Fin 2 → Nat) a + S1x65536.size a ≤ S2x65536.size a
  h_S1x65536 : 0 < S1x65536.numel
  shapeCasts_S1x65536_S1x65536 : S1x65536.ShapeCasts S1x65536
  inb_S2x65536_S1x65536_1_0 : ∀ a, (![1, 0] : Fin 2 → Nat) a + S1x65536.size a ≤ S2x65536.size a
  slices_S8x2_o0_0_S8x1 : S8x2.Slices ![0, 0] S8x1
  broadcasts_S8x1_S8x65536 : S8x1.Broadcasts S8x65536
  broadcasts_S1x65536_S8x65536 : S1x65536.Broadcasts S8x65536
  slices_S8x2_o0_1_S8x1 : S8x2.Slices ![0, 1] S8x1
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S3x8_S3x8_0_0 : ∀ a, (![0, 0] : Fin 2 → Nat) a + S3x8.size a ≤ S3x8.size a
  h_S3x8 : 0 < S3x8.numel
  shapeCasts_S3x8_S3x8 : S3x8.ShapeCasts S3x8
  inb_S3x65536_S3x65536_0_0 : ∀ a, (![0, 0] : Fin 2 → Nat) a + S3x65536.size a ≤ S3x65536.size a
  h_S3x65536 : 0 < S3x65536.numel
  transposes_S3x16777216_S16777216x3_1_0 : S3x16777216.Transposes [1, 0] S16777216x3
  dot_S8x8_S8x65536_S8x65536_1_0_0_1_n_n_wf : DotDims.WF S8x8 S8x65536 S8x65536 [1] [0] [0] [1] [] []
  dot_S3x8_S8x65536_S3x65536_1_0_0_1_n_n_wf : DotDims.WF S3x8 S8x65536 S3x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x65536.size a ≤ S2x16777216.size a
  hwx0_0 : ∀ i : grid0.Coords, EltTy.bits .f32 = 32 ∨ (Rect.block (s := S2x16777216) S2x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2.size a ≤ S8x2.size a
  hwx0_1 : ∀ i : grid0.Coords, EltTy.bits .f32 = 32 ∨ (Rect.block (s := S8x2) S8x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x8.size a ≤ S8x8.size a
  hwx0_2 : ∀ i : grid0.Coords, EltTy.bits .bf16 = 32 ∨ (Rect.block (s := S8x8) S8x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x8.size a ≤ S3x8.size a
  hwx0_3 : ∀ i : grid0.Coords, EltTy.bits .bf16 = 32 ∨ (Rect.block (s := S3x8) S3x8.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x65536.size a ≤ S3x16777216.size a
  hwx0_4 : ∀ i : grid0.Coords, EltTy.bits .f32 = 32 ∨ (Rect.block (s := S3x16777216) S3x65536.size (cc0_transform_4 i) (hinb0_4 i)).WholeWords (EltTy.packing .f32)

variable [Facts₀]

def dot_S8x8_S8x65536_S8x65536_1_0_0_1_n_n : DotDims S8x8 S8x65536 S8x65536 where
  lhsContracting := [1]
  rhsContracting := [0]
  lhsNonContracting := [0]
  rhsNonContracting := [1]
  lhsBatch := []
  rhsBatch := []
  wf := dot_S8x8_S8x65536_S8x65536_1_0_0_1_n_n_wf
def dot_S3x8_S8x65536_S3x65536_1_0_0_1_n_n : DotDims S3x8 S8x65536 S3x65536 where
  lhsContracting := [1]
  rhsContracting := [0]
  lhsNonContracting := [0]
  rhsNonContracting := [1]
  lhsBatch := []
  rhsBatch := []
  wf := dot_S3x8_S8x65536_S3x65536_1_0_0_1_n_n_wf

abbrev win0_0 : Pipeline.Window sig grid0 :=
  Pipeline.Window.ofSpec (Memref.whole main_v0) S2x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3x65536.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S8x2 : Shape := ⟨2, ![8, 2]⟩
abbrev S8x8 : Shape := ⟨2, ![8, 8]⟩
abbrev S3x8 : Shape := ⟨2, ![3, 8]⟩
abbrev S2x8 : Shape := ⟨2, ![2, 8]⟩
abbrev S16777216x8 : Shape := ⟨2, ![16777216, 8]⟩
abbrev S8x3 : Shape := ⟨2, ![8, 3]⟩
abbrev S16777216x3 : Shape := ⟨2, ![16777216, 3]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S8x2, .f32⟩
  | .hbm, ⟨2, _⟩ => ⟨S8x8, .f32⟩
  | .hbm, ⟨3, _⟩ => ⟨S3x8, .f32⟩
  | .hbm, ⟨4, _⟩ => ⟨S2x8, .f32⟩
  | .hbm, ⟨5, _⟩ => ⟨S16777216x8, .f32⟩
  | .hbm, ⟨6, _⟩ => ⟨S16777216x8, .f32⟩
  | .hbm, ⟨7, _⟩ => ⟨S8x8, .f32⟩
  | .hbm, ⟨8, _⟩ => ⟨S16777216x8, .f32⟩
  | .hbm, ⟨9, _⟩ => ⟨S16777216x8, .f32⟩
  | .hbm, ⟨10, _⟩ => ⟨S8x8, .f32⟩
  | .hbm, ⟨11, _⟩ => ⟨S16777216x8, .f32⟩
  | .hbm, ⟨12, _⟩ => ⟨S16777216x8, .f32⟩
  | .hbm, ⟨13, _⟩ => ⟨S8x8, .f32⟩
  | .hbm, ⟨14, _⟩ => ⟨S16777216x8, .f32⟩
  | .hbm, ⟨15, _⟩ => ⟨S16777216x8, .f32⟩
  | .hbm, ⟨16, _⟩ => ⟨S8x8, .f32⟩
  | .hbm, ⟨17, _⟩ => ⟨S16777216x8, .f32⟩
  | .hbm, ⟨18, _⟩ => ⟨S16777216x8, .f32⟩
  | .hbm, ⟨19, _⟩ => ⟨S8x3, .f32⟩
  | .hbm, ⟨20, _⟩ => ⟨S16777216x3, .f32⟩
  | .hbm, ⟨21, _⟩ => ⟨S16777216x3, .f32⟩
  | .hbm, ⟨22, _⟩ => ⟨S16777216x3, .f32⟩
  | .hbm, ⟨23, _⟩ => ⟨S_, .f32⟩
  | .hbm, ⟨24, _⟩ => ⟨S16777216x3, .f32⟩
  | .hbm, ⟨25, _⟩ => ⟨S16777216x3, .f32⟩
  | .hbm, ⟨26, _⟩ => ⟨S_, .f32⟩
  | .hbm, ⟨27, _⟩ => ⟨S16777216x3, .f32⟩
  | .hbm, ⟨28, _⟩ => ⟨S16777216x3, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  transposes_S8x2_S2x8_1_0 : S8x2.Transposes [1, 0] S2x8
  transposes_S8x8_S8x8_1_0 : S8x8.Transposes [1, 0] S8x8
  transposes_S3x8_S8x3_1_0 : S3x8.Transposes [1, 0] S8x3
  bcast_S_S16777216x3 : S_.BroadcastsInDim S16777216x3 (![] : Fin 0 → Fin S16777216x3.rank)
  dot_S16777216x2_S2x8_S16777216x8_1_0_0_1_n_n_wf : DotDims.WF S16777216x2 S2x8 S16777216x8 [1] [0] [0] [1] [] []
  dot_S16777216x8_S8x8_S16777216x8_1_0_0_1_n_n_wf : DotDims.WF S16777216x8 S8x8 S16777216x8 [1] [0] [0] [1] [] []
  dot_S16777216x8_S8x3_S16777216x3_1_0_0_1_n_n_wf : DotDims.WF S16777216x8 S8x3 S16777216x3 [1] [0] [0] [1] [] []

variable [Facts₀]

def dot_S16777216x2_S2x8_S16777216x8_1_0_0_1_n_n : DotDims S16777216x2 S2x8 S16777216x8 where
  lhsContracting := [1]
  rhsContracting := [0]
  lhsNonContracting := [0]
  rhsNonContracting := [1]
  lhsBatch := []
  rhsBatch := []
  wf := dot_S16777216x2_S2x8_S16777216x8_1_0_0_1_n_n_wf
def dot_S16777216x8_S8x8_S16777216x8_1_0_0_1_n_n : DotDims S16777216x8 S8x8 S16777216x8 where
  lhsContracting := [1]
  rhsContracting := [0]
  lhsNonContracting := [0]
  rhsNonContracting := [1]
  lhsBatch := []
  rhsBatch := []
  wf := dot_S16777216x8_S8x8_S16777216x8_1_0_0_1_n_n_wf
def dot_S16777216x8_S8x3_S16777216x3_1_0_0_1_n_n : DotDims S16777216x8 S8x3 S16777216x3 where
  lhsContracting := [1]
  rhsContracting := [0]
  lhsNonContracting := [0]
  rhsNonContracting := [1]
  lhsBatch := []
  rhsBatch := []
  wf := dot_S16777216x8_S8x3_S16777216x3_1_0_0_1_n_n_wf

class Facts : Prop extends Facts₀ where

variable [Facts]
-- ==== Proof.Mlp.lean ====
/-
  The function both programs compute: a small coordinate network evaluated independently at every pixel.

  A pixel has two real coordinates `a`, `b`. With an input matrix `W_in` (8 × 2), ONE hidden matrix `W_h` (8 × 8) applied
  four times, and an output matrix `W_out` (3 × 8):

      h⁰_j   = tanh (W_in[j,0] · a + W_in[j,1] · b)                (j < 8)
      hⁿ⁺¹_j = tanh (∑ₖ W_h[j,k] · hⁿ_k)                           (n = 0, 1, 2, 3)
      out_c  = logistic (∑ₖ W_out[c,k] · h⁴_k)                     (c < 3),   logistic z = 1 / (1 + e^(−z)).

  Everything is stated on the extended reals with the ideal instance's `tanh` and `logistic`, so no finiteness is
  needed anywhere: the only laws used to identify the two programs with this function are the commutativity of the
  product and the reading of a sum over two indices as a sum of two terms.
-/
import Idealize.ShloMosaic.PureOps.Ideal
import Idealize.ShloMosaic.Lib.ValueIdx

noncomputable section

namespace Cert.Mlp

open Idealize.ShloMosaic Idealize.ShloMosaic.ValueIdx

/-- Neuron `j` of the first layer at a pixel with coordinates `a`, `b`. -/
def first (win : (⟨2, ![8, 2]⟩ : Shape).Idx → EReal) (a b : EReal) (j : Fin 8) : EReal :=
  Ideal.tanh (win (ix2 j (0 : Fin 2)) * a + win (ix2 j (1 : Fin 2)) * b)

/-- Neuron `j` of a hidden layer applied to the eight activations `h`. -/
def hidden (wh : (⟨2, ![8, 8]⟩ : Shape).Idx → EReal) (h : Fin 8 → EReal) (j : Fin 8) : EReal :=
  Ideal.tanh (∑ k : Fin 8, wh (ix2 j k) * h k)

/-- Colour channel `c` of the output layer applied to the eight activations `h`. -/
def colour (wout : (⟨2, ![3, 8]⟩ : Shape).Idx → EReal) (h : Fin 8 → EReal) (c : Fin 3) : EReal :=
  Ideal.logistic (∑ k : Fin 8, wout (ix2 c k) * h k)

/-- The network at one pixel: the first layer, the shared hidden layer four times, the output layer. -/
def pixel (win : (⟨2, ![8, 2]⟩ : Shape).Idx → EReal) (wh : (⟨2, ![8, 8]⟩ : Shape).Idx → EReal)
    (wout : (⟨2, ![3, 8]⟩ : Shape).Idx → EReal) (a b : EReal) : Fin 3 → EReal :=
  colour wout (hidden wh (hidden wh (hidden wh (hidden wh (first win a b)))))

/-- The whole image, pixel-major: entry `(p, c)` is channel `c` of the network at pixel `p`'s two coordinates. -/
def image (x : (⟨2, ![16777216, 2]⟩ : Shape).Idx → EReal) (win : (⟨2, ![8, 2]⟩ : Shape).Idx → EReal)
    (wh : (⟨2, ![8, 8]⟩ : Shape).Idx → EReal) (wout : (⟨2, ![3, 8]⟩ : Shape).Idx → EReal) :
    (⟨2, ![16777216, 3]⟩ : Shape).Idx → EReal :=
  fun i => pixel win wh wout (x (ix2 (i 0) (0 : Fin 2))) (x (ix2 (i 0) (1 : Fin 2))) (i 1)

/-- The same image channel-major, as the kernel's output array holds it before the final transposition. -/
def imageT (x : (⟨2, ![16777216, 2]⟩ : Shape).Idx → EReal) (win : (⟨2, ![8, 2]⟩ : Shape).Idx → EReal)
    (wh : (⟨2, ![8, 8]⟩ : Shape).Idx → EReal) (wout : (⟨2, ![3, 8]⟩ : Shape).Idx → EReal) :
    (⟨2, ![3, 16777216]⟩ : Shape).Idx → EReal :=
  fun i => pixel win wh wout (x (ix2 (i 1) (0 : Fin 2))) (x (ix2 (i 1) (1 : Fin 2))) (i 0)

end Cert.Mlp

end
-- ==== Proof.RefIsMlp.lean ====
/-
  The reference program computes the coordinate network of `Mlp.lean`.

  jnp writes every layer as `h @ Wᵀ`: entry `(p, j)` of a layer is `∑ₖ h[p,k] · Wᵀ[k,j] = ∑ₖ h[p,k] · W[j,k]`, the
  activations on the LEFT of each product. The specification has the weight on the left, so each layer is identified
  by commuting the factors under the sum; the first layer's sum runs over the two coordinates and is its two terms.
  jax expands the logistic function into `1 / (1 + exp (−z))`, which is the ideal instance's `logistic` by definition,
  the constant word `0x3F800000` being the number one.
-/
import proofs.«127684_j55439437857087_2_alg».proof.Proof.Gen.ReferenceIdeal.Read
import proofs.«127684_j55439437857087_2_alg».proof.Proof.Mlp
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx

variable (x0 : (⟨S16777216x2, .f32⟩ : BufTy).Contents (Elt Ideal)) (x1 : (⟨S8x2, .f32⟩ : BufTy).Contents (Elt Ideal))
  (x2 : (⟨S8x8, .f32⟩ : BufTy).Contents (Elt Ideal)) (x3 : (⟨S3x8, .f32⟩ : BufTy).Contents (Elt Ideal))

/-- The first layer: `tanh (x @ W_inᵀ)` at `(p, j)` is neuron `j` at pixel `p`'s two coordinates. -/
theorem layer0 (p : Fin 16777216) (j : Fin 8) :
    val_main_v2 (F := Ideal) x0 x1 (ix2 p j) = Mlp.first x1 (x0 (ix2 p (0 : Fin 2))) (x0 (ix2 p (1 : Fin 2))) j := by
  have el : ∀ k : Fin 2, lidx_main_v1 (ix2 p j) k = ix2 p k := fun k => funext fun a => Fin.ext (by
    match a with | ⟨0, _⟩ => rfl | ⟨1, _⟩ => rfl)
  have er : ∀ k : Fin 2, idx_main_v0 (ridx_main_v1 (ix2 p j) k) = ix2 j k := fun k => funext fun a => Fin.ext (by
    match a with | ⟨0, _⟩ => rfl | ⟨1, _⟩ => rfl)
  rw [val_main_v2_apply, val_main_v1_apply]
  simp only [val_main_v0_apply, el, er, Fin.sum_univ_two]
  unfold Mlp.first
  rw [Ideal.hostUnary_tanh_def]
  exact congrArg Ideal.tanh (congrArg₂ (· + ·) (mul_comm _ _) (mul_comm _ _))

/-- One hidden layer, `tanh (h @ W_hᵀ)` at `(p, j)`, for any incoming activations `y`. -/
theorem hidden_of (y : (⟨S16777216x8, .f32⟩ : BufTy).Contents (Elt Ideal)) (p : Fin 16777216) (j : Fin 8)
    (z : EReal) (hz : z = ∑ k : Fin 8, y (ix2 p k) * x2 (ix2 j k)) :
    Ideal.tanh z = Mlp.hidden x2 (fun k => y (ix2 p k)) j := by
  unfold Mlp.hidden
  rw [hz]
  exact congrArg Ideal.tanh (Finset.sum_congr rfl fun k _ => mul_comm _ _)

theorem layer1 (p : Fin 16777216) (j : Fin 8) :
    val_main_v5 (F := Ideal) x0 x1 x2 (ix2 p j) = Mlp.hidden x2 (fun k => val_main_v2 (F := Ideal) x0 x1 (ix2 p k)) j := by
  have el : ∀ k : Fin 8, lidx_main_v4 (ix2 p j) k = ix2 p k := fun k => funext fun a => Fin.ext (by
    match a with | ⟨0, _⟩ => rfl | ⟨1, _⟩ => rfl)
  have er : ∀ k : Fin 8, idx_main_v3 (ridx_main_v4 (ix2 p j) k) = ix2 j k := fun k => funext fun a => Fin.ext (by
    match a with | ⟨0, _⟩ => rfl | ⟨1, _⟩ => rfl)
  rw [val_main_v5_apply, Ideal.hostUnary_tanh_def]
  refine hidden_of x2 _ p j _ ?_
  rw [val_main_v4_apply]
  simp only [val_main_v3_apply, el, er]

theorem layer2 (p : Fin 16777216) (j : Fin 8) :
    val_main_v8 (F := Ideal) x0 x1 x2 (ix2 p j) = Mlp.hidden x2 (fun k => val_main_v5 (F := Ideal) x0 x1 x2 (ix2 p k)) j := by
  have el : ∀ k : Fin 8, lidx_main_v7 (ix2 p j) k = ix2 p k := fun k => funext fun a => Fin.ext (by
    match a with | ⟨0, _⟩ => rfl | ⟨1, _⟩ => rfl)
  have er : ∀ k : Fin 8, idx_main_v6 (ridx_main_v7 (ix2 p j) k) = ix2 j k := fun k => funext fun a => Fin.ext (by
    match a with | ⟨0, _⟩ => rfl | ⟨1, _⟩ => rfl)
  rw [val_main_v8_apply, Ideal.hostUnary_tanh_def]
  refine hidden_of x2 _ p j _ ?_
  rw [val_main_v7_apply]
  simp only [val_main_v6_apply, el, er]

theorem layer3 (p : Fin 16777216) (j : Fin 8) :
    val_main_v11 (F := Ideal) x0 x1 x2 (ix2 p j) = Mlp.hidden x2 (fun k => val_main_v8 (F := Ideal) x0 x1 x2 (ix2 p k)) j := by
  have el : ∀ k : Fin 8, lidx_main_v10 (ix2 p j) k = ix2 p k := fun k => funext fun a => Fin.ext (by
    match a with | ⟨0, _⟩ => rfl | ⟨1, _⟩ => rfl)
  have er : ∀ k : Fin 8, idx_main_v9 (ridx_main_v10 (ix2 p j) k) = ix2 j k := fun k => funext fun a => Fin.ext (by
    match a with | ⟨0, _⟩ => rfl | ⟨1, _⟩ => rfl)
  rw [val_main_v11_apply, Ideal.hostUnary_tanh_def]
  refine hidden_of x2 _ p j _ ?_
  rw [val_main_v10_apply]
  simp only [val_main_v9_apply, el, er]

theorem layer4 (p : Fin 16777216) (j : Fin 8) :
    val_main_v14 (F := Ideal) x0 x1 x2 (ix2 p j) = Mlp.hidden x2 (fun k => val_main_v11 (F := Ideal) x0 x1 x2 (ix2 p k)) j := by
  have el : ∀ k : Fin 8, lidx_main_v13 (ix2 p j) k = ix2 p k := fun k => funext fun a => Fin.ext (by
    match a with | ⟨0, _⟩ => rfl | ⟨1, _⟩ => rfl)
  have er : ∀ k : Fin 8, idx_main_v12 (ridx_main_v13 (ix2 p j) k) = ix2 j k := fun k => funext fun a => Fin.ext (by
    match a with | ⟨0, _⟩ => rfl | ⟨1, _⟩ => rfl)
  rw [val_main_v14_apply, Ideal.hostUnary_tanh_def]
  refine hidden_of x2 _ p j _ ?_
  rw [val_main_v13_apply]
  simp only [val_main_v12_apply, el, er]

/-- The output layer: `1 / (1 + exp (−(h @ W_outᵀ)))` at `(p, c)` is the logistic function of channel `c`'s sum. -/
theorem layer5 (p : Fin 16777216) (c : Fin 3) :
    val_main_v22 (F := Ideal) x0 x1 x2 x3 (ix2 p c)
      = Mlp.colour x3 (fun k => val_main_v14 (F := Ideal) x0 x1 x2 (ix2 p k)) c := by
  have el : ∀ k : Fin 8, lidx_main_v16 (ix2 p c) k = ix2 p k := fun k => funext fun a => Fin.ext (by
    match a with | ⟨0, _⟩ => rfl | ⟨1, _⟩ => rfl)
  have er : ∀ k : Fin 8, idx_main_v15 (ridx_main_v16 (ix2 p c) k) = ix2 c k := fun k => funext fun a => Fin.ext (by
    match a with | ⟨0, _⟩ => rfl | ⟨1, _⟩ => rfl)
  rw [val_main_v22_apply, val_main_v21_apply, val_main_cst_0_apply, val_main_v20_apply, val_main_v19_apply,
    val_main_cst_apply, val_main_v18_apply, val_main_v17_apply, val_main_v16_apply]
  simp only [val_main_v15_apply, el, er]
  unfold Mlp.colour Ideal.logistic
  simp only [Ideal.hostDivf_def, Ideal.ofBits_def, Ideal.ofBits_one_f32, Ideal.addf_def, Ideal.hostUnary_exp_def,
    Ideal.hostNegf_def, Ideal.negf_def]
  exact congrArg (fun s : EReal => Ideal.div 1 (1 + Ideal.exp (-s))) (Finset.sum_congr rfl fun k _ => mul_comm _ _)

/-- THE REFERENCE'S RESULT is the image of the coordinate network. -/
theorem ref_eq : val_main_v22 (F := Ideal) x0 x1 x2 x3 = Mlp.image x0 x1 x2 x3 := by
  funext i
  obtain ⟨p, c, rfl⟩ : ∃ (p : Fin 16777216) (c : Fin 3), i = ix2 p c := ⟨i 0, i 1, eq_ix2 i⟩
  rw [layer5]
  simp only [layer4, layer3, layer2, layer1, layer0]
  rfl

end Cert.ReferenceIdeal.RefValue

end
-- ==== Proof.KernelPayload.lean ====
/-
  What the kernel's body stores, read at one entry.

  The body works on a tile of pixels laid along the lanes: activations are `[8, tile]` matrices, one COLUMN per pixel,
  and every layer multiplies by the weight matrix on the LEFT, `W @ h`: entry `(j, q)` is `∑ₖ W[j,k] · h[k,q]`, a function
  of column `q` alone. The first layer is written without a matrix product: column 0 and column 1 of `W_in` are each
  broadcast along the lanes, the tile's two coordinate rows are each broadcast along the sublanes, and the two products
  are added. Narrowing an activation to bf16 before a product changes nothing on the extended reals, and a product
  accumulated into a zero tile is the plain sum. So entry `(c, q)` of the stored tile is the coordinate network of
  `Mlp.lean` at the pixel whose coordinates are the two rows' entries in lane `q`.
-/
import proofs.«127684_j55439437857087_2_alg».proof.Proof.Gen.KernelIdeal.Skeleton
import proofs.«127684_j55439437857087_2_alg».proof.Proof.Mlp
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx

/-! ## The body's three layer spellings, named -/

/-- The first layer on a tile: `tanh (W_in[:,0] ⊗ row₀ + W_in[:,1] ⊗ row₁)`. -/
def firstTile (v0 : FVec Ideal S8x2 .f32) (v1 v3 : FVec Ideal S1x65536 .f32) : FVec Ideal S8x65536 .f32 :=
  tanh (addf
    (mulf (broadcastTo S8x65536 (extractStridedSlice S8x1 ![0, 0] v0 slices_S8x2_o0_0_S8x1) broadcasts_S8x1_S8x65536)
      (broadcastTo S8x65536 (shapeCast S1x65536 v1 shapeCasts_S1x65536_S1x65536) broadcasts_S1x65536_S8x65536))
    (mulf (broadcastTo S8x65536 (extractStridedSlice S8x1 ![0, 1] v0 slices_S8x2_o0_1_S8x1) broadcasts_S8x1_S8x65536)
      (broadcastTo S8x65536 (shapeCast S1x65536 v3 shapeCasts_S1x65536_S1x65536) broadcasts_S1x65536_S8x65536)))

/-- A hidden layer on a tile: `tanh (W_h @ bf16 h)`, accumulated into zeros. -/
def hiddenTile (w : FVec Ideal S8x8 .bf16) (h : FVec Ideal S8x65536 .f32) : FVec Ideal S8x65536 .f32 :=
  tanh (matmul dot_S8x8_S8x65536_S8x65536_1_0_0_1_n_n none w (truncf .bf16 h bitsLt_bf16_f32)
    (constant (F := Ideal) S8x65536 .f32 0x00000000#32))

/-- The output layer on a tile: `logistic (W_out @ bf16 h)`, accumulated into zeros. -/
def outTile (w : FVec Ideal S3x8 .bf16) (h : FVec Ideal S8x65536 .f32) : FVec Ideal S3x65536 .f32 :=
  logistic (matmul dot_S3x8_S8x65536_S3x65536_1_0_0_1_n_n none w (truncf .bf16 h bitsLt_bf16_f32)
    (constant (F := Ideal) S3x65536 .f32 0x00000000#32))

/-- The stored value is the output layer of four hidden layers of the first layer. -/
theorem pay_eq (v0 : Vec Ideal S8x2 .f32) (v1 v3 : Vec Ideal S1x65536 .f32) (v16 : Vec Ideal S8x8 .bf16)
    (v30 : Vec Ideal S3x8 .bf16) :
    k0_pay1 (F := Ideal) v0 v1 v3 v16 v30
      = outTile (shapeCast S3x8 v30 shapeCasts_S3x8_S3x8)
          (hiddenTile (shapeCast S8x8 v16 shapeCasts_S8x8_S8x8)
            (hiddenTile (shapeCast S8x8 v16 shapeCasts_S8x8_S8x8)
              (hiddenTile (shapeCast S8x8 v16 shapeCasts_S8x8_S8x8)
                (hiddenTile (shapeCast S8x8 v16 shapeCasts_S8x8_S8x8) (firstTile v0 v1 v3))))) := rfl

/-! ## Layout operations of the first layer, read at an entry -/

/-- A column `[8, 1]` broadcast along the lanes reads, at `(j, q)`, the column's entry `j`. -/
theorem bcast_col (v : FVec Ideal S8x1 .f32) (j : Fin 8) (q : Fin 65536) :
    broadcastTo S8x65536 v broadcasts_S8x1_S8x65536 (ix2 j q) = v (ix2 j (0 : Fin 1)) := by
  refine broadcastTo_apply v _ (ix2 j q) (ix2 j (0 : Fin 1)) fun a => ?_
  match a with
  | ⟨0, _⟩ => rfl
  | ⟨1, _⟩ => rfl

/-- Column 0 of the input matrix. -/
theorem slice_col0 (v0 : FVec Ideal S8x2 .f32) (j : Fin 8) :
    extractStridedSlice S8x1 ![0, 0] v0 slices_S8x2_o0_0_S8x1 (ix2 j (0 : Fin 1)) = v0 (ix2 j (0 : Fin 2)) :=
  extractStridedSlice_apply _ v0 _ _ _ fun a => by
    match a with
    | ⟨0, _⟩ => exact (Nat.zero_add _).symm
    | ⟨1, _⟩ => rfl

/-- Column 1 of the input matrix. -/
theorem slice_col1 (v0 : FVec Ideal S8x2 .f32) (j : Fin 8) :
    extractStridedSlice S8x1 ![0, 1] v0 slices_S8x2_o0_1_S8x1 (ix2 j (0 : Fin 1)) = v0 (ix2 j (1 : Fin 2)) :=
  extractStridedSlice_apply _ v0 _ _ _ fun a => by
    match a with
    | ⟨0, _⟩ => exact (Nat.zero_add _).symm
    | ⟨1, _⟩ => rfl

/-- THE FIRST LAYER at `(j, q)`: neuron `j` at the pixel whose coordinates are the two rows' entries in lane `q`. -/
theorem firstTile_apply (v0 : FVec Ideal S8x2 .f32) (v1 v3 : FVec Ideal S1x65536 .f32) (j : Fin 8) (q : Fin 65536) :
    firstTile v0 v1 v3 (ix2 j q) = Mlp.first v0 (v1 (ix2 (0 : Fin 1) q)) (v3 (ix2 (0 : Fin 1) q)) j := by
  unfold firstTile Mlp.first
  rw [shapeCast_self v1, shapeCast_self v3]
  show Ideal.tanh (broadcastTo S8x65536 _ broadcasts_S8x1_S8x65536 (ix2 j q)
        * broadcastTo S8x65536 v1 broadcasts_S1x65536_S8x65536 (ix2 j q)
      + broadcastTo S8x65536 _ broadcasts_S8x1_S8x65536 (ix2 j q)
        * broadcastTo S8x65536 v3 broadcasts_S1x65536_S8x65536 (ix2 j q)) = _
  rw [bcast_col, bcast_col, broadcastTo_1b_ab_apply, broadcastTo_1b_ab_apply, slice_col0, slice_col1]

/-! ## The two matrix products, read at an entry -/

theorem hid_lhs0 (i : S8x65536.Idx) (q : dot_S8x8_S8x65536_S8x65536_1_0_0_1_n_n.contr.Idx) :
    (dot_S8x8_S8x65536_S8x65536_1_0_0_1_n_n.lhsIdx i q 0).val = (i 0).val := by
  unfold DotDims.lhsIdx
  rw [dif_neg (show ¬(0 : Fin S8x8.rank) ∈ dot_S8x8_S8x65536_S8x65536_1_0_0_1_n_n.lhsBatch by decide),
    dif_pos (show (0 : Fin S8x8.rank) ∈ dot_S8x8_S8x65536_S8x65536_1_0_0_1_n_n.lhsNonContracting by decide)]
  rfl
theorem hid_lhs1 (i : S8x65536.Idx) (q : dot_S8x8_S8x65536_S8x65536_1_0_0_1_n_n.contr.Idx) :
    (dot_S8x8_S8x65536_S8x65536_1_0_0_1_n_n.lhsIdx i q 1).val = (q ⟨0, by decide⟩).val :=
  dot_S8x8_S8x65536_S8x65536_1_0_0_1_n_n.lhsIdx_val_of_single rfl i q
theorem hid_rhs0 (i : S8x65536.Idx) (q : dot_S8x8_S8x65536_S8x65536_1_0_0_1_n_n.contr.Idx) :
    (dot_S8x8_S8x65536_S8x65536_1_0_0_1_n_n.rhsIdx i q 0).val = (q ⟨0, by decide⟩).val :=
  dot_S8x8_S8x65536_S8x65536_1_0_0_1_n_n.rhsIdx_val_of_single rfl i q
theorem hid_rhs1 (i : S8x65536.Idx) (q : dot_S8x8_S8x65536_S8x65536_1_0_0_1_n_n.contr.Idx) :
    (dot_S8x8_S8x65536_S8x65536_1_0_0_1_n_n.rhsIdx i q 1).val = (i 1).val := by
  unfold DotDims.rhsIdx
  rw [dif_neg (show ¬(1 : Fin S8x65536.rank) ∈ dot_S8x8_S8x65536_S8x65536_1_0_0_1_n_n.rhsBatch by decide),
    dif_pos (show (1 : Fin S8x65536.rank) ∈ dot_S8x8_S8x65536_S8x65536_1_0_0_1_n_n.rhsNonContracting by decide)]
  rfl

/-- `W @ h` into zeros, at `(j, q)`: row `j` of `W` against column `q` of `h`. -/
theorem hiddenDot_apply (w : FVec Ideal S8x8 .bf16) (h : FVec Ideal S8x65536 .bf16) (j : Fin 8) (q : Fin 65536) :
    matmul dot_S8x8_S8x65536_S8x65536_1_0_0_1_n_n none w h (constant (F := Ideal) S8x65536 .f32 0x00000000#32) (ix2 j q)
      = ∑ k : Fin 8, w (ix2 j k) * h (ix2 k q) := by
  simp only [matmul]
  rw [Ideal.matmul_constant_zero_apply,
    ← Equiv.sum_comp (contrEquiv1 dot_S8x8_S8x65536_S8x65536_1_0_0_1_n_n 8 rfl rfl).symm]
  refine Finset.sum_congr rfl fun k _ => ?_
  have hk := contrEquiv1_symm_val dot_S8x8_S8x65536_S8x65536_1_0_0_1_n_n 8 rfl rfl k
  have el : dot_S8x8_S8x65536_S8x65536_1_0_0_1_n_n.lhsIdx (ix2 j q)
      ((contrEquiv1 dot_S8x8_S8x65536_S8x65536_1_0_0_1_n_n 8 rfl rfl).symm k) = ix2 j k := funext fun a => Fin.ext (by
    match a with
    | ⟨0, _⟩ => exact hid_lhs0 _ _
    | ⟨1, _⟩ => exact (hid_lhs1 _ _).trans hk)
  have er : dot_S8x8_S8x65536_S8x65536_1_0_0_1_n_n.rhsIdx (ix2 j q)
      ((contrEquiv1 dot_S8x8_S8x65536_S8x65536_1_0_0_1_n_n 8 rfl rfl).symm k) = ix2 k q := funext fun a => Fin.ext (by
    match a with
    | ⟨0, _⟩ => exact (hid_rhs0 _ _).trans hk
    | ⟨1, _⟩ => exact hid_rhs1 _ _)
  rw [el, er]

/-- A HIDDEN LAYER at `(j, q)`: neuron `j` applied to column `q` of the incoming activations. -/
theorem hiddenTile_apply (w : FVec Ideal S8x8 .bf16) (h : FVec Ideal S8x65536 .f32) (j : Fin 8) (q : Fin 65536) :
    hiddenTile w h (ix2 j q) = Mlp.hidden w (fun k => h (ix2 k q)) j := by
  unfold hiddenTile Mlp.hidden
  show Ideal.tanh (matmul dot_S8x8_S8x65536_S8x65536_1_0_0_1_n_n none w (truncf .bf16 h bitsLt_bf16_f32)
    (constant (F := Ideal) S8x65536 .f32 0x00000000#32) (ix2 j q)) = _
  rw [hiddenDot_apply]
  rfl

theorem out_lhs0 (i : S3x65536.Idx) (q : dot_S3x8_S8x65536_S3x65536_1_0_0_1_n_n.contr.Idx) :
    (dot_S3x8_S8x65536_S3x65536_1_0_0_1_n_n.lhsIdx i q 0).val = (i 0).val := by
  unfold DotDims.lhsIdx
  rw [dif_neg (show ¬(0 : Fin S3x8.rank) ∈ dot_S3x8_S8x65536_S3x65536_1_0_0_1_n_n.lhsBatch by decide),
    dif_pos (show (0 : Fin S3x8.rank) ∈ dot_S3x8_S8x65536_S3x65536_1_0_0_1_n_n.lhsNonContracting by decide)]
  rfl
theorem out_lhs1 (i : S3x65536.Idx) (q : dot_S3x8_S8x65536_S3x65536_1_0_0_1_n_n.contr.Idx) :
    (dot_S3x8_S8x65536_S3x65536_1_0_0_1_n_n.lhsIdx i q 1).val = (q ⟨0, by decide⟩).val :=
  dot_S3x8_S8x65536_S3x65536_1_0_0_1_n_n.lhsIdx_val_of_single rfl i q
theorem out_rhs0 (i : S3x65536.Idx) (q : dot_S3x8_S8x65536_S3x65536_1_0_0_1_n_n.contr.Idx) :
    (dot_S3x8_S8x65536_S3x65536_1_0_0_1_n_n.rhsIdx i q 0).val = (q ⟨0, by decide⟩).val :=
  dot_S3x8_S8x65536_S3x65536_1_0_0_1_n_n.rhsIdx_val_of_single rfl i q
theorem out_rhs1 (i : S3x65536.Idx) (q : dot_S3x8_S8x65536_S3x65536_1_0_0_1_n_n.contr.Idx) :
    (dot_S3x8_S8x65536_S3x65536_1_0_0_1_n_n.rhsIdx i q 1).val = (i 1).val := by
  unfold DotDims.rhsIdx
  rw [dif_neg (show ¬(1 : Fin S8x65536.rank) ∈ dot_S3x8_S8x65536_S3x65536_1_0_0_1_n_n.rhsBatch by decide),
    dif_pos (show (1 : Fin S8x65536.rank) ∈ dot_S3x8_S8x65536_S3x65536_1_0_0_1_n_n.rhsNonContracting by decide)]
  rfl

/-- `W_out @ h` into zeros, at `(c, q)`: row `c` of `W_out` against column `q` of `h`. -/
theorem outDot_apply (w : FVec Ideal S3x8 .bf16) (h : FVec Ideal S8x65536 .bf16) (c : Fin 3) (q : Fin 65536) :
    matmul dot_S3x8_S8x65536_S3x65536_1_0_0_1_n_n none w h (constant (F := Ideal) S3x65536 .f32 0x00000000#32) (ix2 c q)
      = ∑ k : Fin 8, w (ix2 c k) * h (ix2 k q) := by
  simp only [matmul]
  rw [Ideal.matmul_constant_zero_apply,
    ← Equiv.sum_comp (contrEquiv1 dot_S3x8_S8x65536_S3x65536_1_0_0_1_n_n 8 rfl rfl).symm]
  refine Finset.sum_congr rfl fun k _ => ?_
  have hk := contrEquiv1_symm_val dot_S3x8_S8x65536_S3x65536_1_0_0_1_n_n 8 rfl rfl k
  have el : dot_S3x8_S8x65536_S3x65536_1_0_0_1_n_n.lhsIdx (ix2 c q)
      ((contrEquiv1 dot_S3x8_S8x65536_S3x65536_1_0_0_1_n_n 8 rfl rfl).symm k) = ix2 c k := funext fun a => Fin.ext (by
    match a with
    | ⟨0, _⟩ => exact out_lhs0 _ _
    | ⟨1, _⟩ => exact (out_lhs1 _ _).trans hk)
  have er : dot_S3x8_S8x65536_S3x65536_1_0_0_1_n_n.rhsIdx (ix2 c q)
      ((contrEquiv1 dot_S3x8_S8x65536_S3x65536_1_0_0_1_n_n 8 rfl rfl).symm k) = ix2 k q := funext fun a => Fin.ext (by
    match a with
    | ⟨0, _⟩ => exact (out_rhs0 _ _).trans hk
    | ⟨1, _⟩ => exact out_rhs1 _ _)
  rw [el, er]

/-- THE OUTPUT LAYER at `(c, q)`: channel `c` applied to column `q` of the incoming activations. -/
theorem outTile_apply (w : FVec Ideal S3x8 .bf16) (h : FVec Ideal S8x65536 .f32) (c : Fin 3) (q : Fin 65536) :
    outTile w h (ix2 c q) = Mlp.colour w (fun k => h (ix2 k q)) c := by
  unfold outTile Mlp.colour
  show Ideal.logistic (matmul dot_S3x8_S8x65536_S3x65536_1_0_0_1_n_n none w (truncf .bf16 h bitsLt_bf16_f32)
    (constant (F := Ideal) S3x65536 .f32 0x00000000#32) (ix2 c q)) = _
  rw [outDot_apply]
  rfl

/-! ## The stored tile at an entry -/

/-- ENTRY `(c, q)` OF THE STORED TILE is channel `c` of the coordinate network at the pixel in lane `q`. -/
theorem pay_apply (v0 : Vec Ideal S8x2 .f32) (v1 v3 : Vec Ideal S1x65536 .f32) (v16 : Vec Ideal S8x8 .bf16)
    (v30 : Vec Ideal S3x8 .bf16) (c : Fin 3) (q : Fin 65536) :
    k0_pay1 (F := Ideal) v0 v1 v3 v16 v30 (ix2 c q)
      = Mlp.pixel v0 v16 v30 (v1 (ix2 (0 : Fin 1) q)) (v3 (ix2 (0 : Fin 1) q)) c := by
  rw [pay_eq, shapeCast_self v16, shapeCast_self v30, outTile_apply]
  simp only [hiddenTile_apply, firstTile_apply]
  rfl

end Cert.KernelIdeal.Payload

end
-- ==== Proof.KernelArray.lean ====
/-
  From the stored tiles to the kernel's result array.

  Grid point `t` (of 256) works on pixels `65536·t … 65536·t + 65535`. Its input block is the same lanes of the
  transposed coordinate array (2 × 16777216, entry `(r, p)` the coordinate `r` of pixel `p`), the three weight matrices
  are whole blocks, the hidden and output matrices narrowed to bf16 beforehand — nothing on the extended reals —,
  and its output block is the same lanes of the 3 × 16777216 result. By `KernelPayload.lean` entry `(c, q)` of the stored
  tile is the coordinate network at pixel `65536·t + q`; the 256 blocks tile the result, so the result is the
  channel-major image `Mlp.imageT`, and the final transposition makes it the pixel-major `Mlp.image`.
-/
import proofs.«127684_j55439437857087_2_alg».proof.Proof.Gen.KernelIdeal.Frame
import proofs.«127684_j55439437857087_2_alg».proof.Proof.KernelPayload
import Idealize.ShloMosaic.Lib.Pipeline.Value
import Idealize.ShloMosaic.Lib.ValueLayout
import Idealize.ShloMosaic.Lib.StableHlo.Run

noncomputable section

namespace Cert.KernelIdeal.Arr

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What one grid point stores, from its four input blocks -/

/-- Entry `(ch, q)` of the output block is channel `ch` of the network at the pixel whose coordinates are rows 0 and 1 of
    the coordinate block in lane `q`. -/
theorem point_eq (X0 : Vec Ideal S2x65536 .f32) (X1 : Vec Ideal S8x2 .f32) (X2 : Vec Ideal S8x8 .bf16)
    (X3 : Vec Ideal S3x8 .bf16) (ch : Fin 3) (q : Fin 65536) :
    out0_4 X0 X1 X2 X3 (ix2 ch q) = Mlp.pixel X1 X2 X3 (X0 (ix2 (0 : Fin 2) q)) (X0 (ix2 (1 : Fin 2) q)) ch := by
  unfold out0_4
  rw [View.canon_unit_zero hz, Payload.pay_apply]
  simp only [View.ld_unit_zero (S := S8x2) hz, View.ld_unit_zero (S := S8x8) hz, View.ld_unit_zero (S := S3x8) hz]
  have e0 : View.ld X0 r0_1 (ix2 (0 : Fin 1) q) = X0 (ix2 (0 : Fin 2) q) := congrArg X0 (funext fun a => Fin.ext (by
    match a with
    | ⟨0, _⟩ => rfl
    | ⟨1, _⟩ => show 0 + 1 * q.val = q.val; omega))
  have e1 : View.ld X0 r0_2 (ix2 (0 : Fin 1) q) = X0 (ix2 (1 : Fin 2) q) := congrArg X0 (funext fun a => Fin.ext (by
    match a with
    | ⟨0, _⟩ => rfl
    | ⟨1, _⟩ => show 0 + 1 * q.val = q.val; omega))
  rw [e0, e1]

/-! ## The arrays as the region finds them -/

/-- The coordinate array is transposed before the call. -/
theorem V_coords (c : Dev nD) :
    (V m c main_v0 : S2x16777216.Idx → EReal)
      = transpose S2x16777216 [1, 0] (m ((c : Thread nD τ).loc main_arg0)) transposes_S16777216x2_S2x16777216_1_0 := by
  show StableHlo.after hostOps0 (fun b => m (c, b)) (Proc.devRef .tc main_v0) = _
  after_results

/-- The hidden matrix is narrowed to bf16 before the call: on the extended reals, the matrix itself. -/
theorem V_hidden (c : Dev nD) :
    (V m c main_v1 : S8x8.Idx → EReal) = (m ((c : Thread nD τ).loc main_arg2) : S8x8.Idx → EReal) := by
  show StableHlo.after hostOps0 (fun b => m (c, b)) (Proc.devRef .tc main_v1) = _
  first | (after_results; done) | (after_results; rfl)

/-- The output matrix likewise. -/
theorem V_out (c : Dev nD) :
    (V m c main_v2 : S3x8.Idx → EReal) = (m ((c : Thread nD τ).loc main_arg3) : S3x8.Idx → EReal) := by
  show StableHlo.after hostOps0 (fun b => m (c, b)) (Proc.devRef .tc main_v2) = _
  first | (after_results; done) | (after_results; rfl)

/-! ## The blocks at a grid point -/

/-- The printed index maps, decided over the 256 points: the coordinate block and the output block move along the lanes
    with the point, the weight blocks stay at the origin. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- Grid point `t`'s lane `q` is pixel `65536·t + q`. -/
def pix (t : Fin cfg0.N) (q : Fin 65536) : Fin 16777216 :=
  ⟨t.val * 65536 + q.val, by
    have ht : t.val < 256 := Nat.lt_of_lt_of_eq t.isLt N_0
    have hq : q.val < 65536 := q.isLt
    omega⟩

/-- The coordinate block at `(r, q)` is coordinate `r` of that pixel. -/
theorem iblk0_apply (c : Dev nD) (t : Fin cfg0.N) (r : Fin 2) (q : Fin 65536) :
    (iblk m c 0 t : Vec Ideal S2x65536 .f32) (ix2 r q)
      = (m ((c : Thread nD τ).loc main_arg0) : S16777216x2.Idx → EReal) (ix2 (pix t q) r) := by
  obtain ⟨h0, h1, -⟩ := idx_facts t
  unfold iblk
  rw [View.read_apply]
  show V m c main_v0 _ = _
  rw [V_coords m c]
  refine (congrArg _ (?_ : _ = ix2 r (pix t q))).trans (transpose_ix2_apply _ _ r (pix t q))
  funext a
  apply Fin.ext
  match a with
  | ⟨0, _⟩ => show win0_0.index t 0 * 2 + 1 * r.val = r.val; rw [h0]; omega
  | ⟨1, _⟩ => show win0_0.index t 1 * 65536 + 1 * q.val = t.val * 65536 + q.val; rw [h1]; omega

/-- The input-matrix block is the whole input matrix. -/
theorem iblk1_eq (c : Dev nD) (t : Fin cfg0.N) :
    (iblk m c 1 t : Vec Ideal S8x2 .f32) = (m ((c : Thread nD τ).loc main_arg1) : S8x2.Idx → EReal) := by
  obtain ⟨-, -, h0, h1, -⟩ := idx_facts t
  funext y
  unfold iblk
  rw [View.read_apply]
  show V m c main_arg1 _ = _
  rw [V_main_arg1 m c]
  refine congrArg _ (funext fun a => Fin.ext ?_)
  match a with
  | ⟨0, _⟩ => show win0_1.index t 0 * 8 + 1 * (y 0).val = (y 0).val; rw [h0]; omega
  | ⟨1, _⟩ => show win0_1.index t 1 * 2 + 1 * (y 1).val = (y 1).val; rw [h1]; omega

/-- The hidden-matrix block is the whole hidden matrix. -/
theorem iblk2_eq (c : Dev nD) (t : Fin cfg0.N) :
    (iblk m c 2 t : Vec Ideal S8x8 .bf16) = (m ((c : Thread nD τ).loc main_arg2) : S8x8.Idx → EReal) := by
  obtain ⟨-, -, -, -, h0, h1, -⟩ := idx_facts t
  funext y
  unfold iblk
  rw [View.read_apply]
  show V m c main_v1 _ = _
  rw [V_hidden m c]
  refine congrArg _ (funext fun a => Fin.ext ?_)
  match a with
  | ⟨0, _⟩ => show win0_2.index t 0 * 8 + 1 * (y 0).val = (y 0).val; rw [h0]; omega
  | ⟨1, _⟩ => show win0_2.index t 1 * 8 + 1 * (y 1).val = (y 1).val; rw [h1]; omega

/-- The output-matrix block is the whole output matrix. -/
theorem iblk3_eq (c : Dev nD) (t : Fin cfg0.N) :
    (iblk m c 3 t : Vec Ideal S3x8 .bf16) = (m ((c : Thread nD τ).loc main_arg3) : S3x8.Idx → EReal) := by
  obtain ⟨-, -, -, -, -, -, h0, h1, -⟩ := idx_facts t
  funext y
  unfold iblk
  rw [View.read_apply]
  show V m c main_v2 _ = _
  rw [V_out m c]
  refine congrArg _ (funext fun a => Fin.ext ?_)
  match a with
  | ⟨0, _⟩ => show win0_3.index t 0 * 3 + 1 * (y 0).val = (y 0).val; rw [h0]; omega
  | ⟨1, _⟩ => show win0_3.index t 1 * 8 + 1 * (y 1).val = (y 1).val; rw [h1]; omega

/-- Entry `(ch, q)` of the output block sits at `(ch, 65536·t + q)` of the result array. -/
theorem blk4_emb (t : Fin cfg0.N) (ch : Fin 3) (q : Fin 65536) :
    ((cfg0.win 4).blk t).view.emb (ix2 ch q) = (ix2 ch (pix t q) : S3x16777216.Idx) := by
  obtain ⟨-, -, -, -, -, -, -, -, h0, h1⟩ := idx_facts t
  funext a
  apply Fin.ext
  match a with
  | ⟨0, _⟩ => show win0_4.index t 0 * 3 + 1 * ch.val = ch.val; rw [h0]; omega
  | ⟨1, _⟩ => show win0_4.index t 1 * 65536 + 1 * q.val = t.val * 65536 + q.val; rw [h1]; omega

/-! ## The result array of the call -/

/-- The channel-major image of the argument arrays. -/
abbrev outT (c : Dev nD) : S3x16777216.Idx → EReal :=
  Mlp.imageT (m ((c : Thread nD τ).loc main_arg0)) (m ((c : Thread nD τ).loc main_arg1))
    (m ((c : Thread nD τ).loc main_arg2)) (m ((c : Thread nD τ).loc main_arg3))

/-- WHAT POINT `t` WRITES BACK is block `t` of the channel-major image. -/
theorem flushed_eq (c : Dev nD) (t : Fin cfg0.N) :
    (dats m 0 c).flushed 4 t = ((cfg0.win 4).blk t).view.read (Elt Ideal) (outT m c) := by
  show (cfg0.win 4).cut (grid0.coords t) ((dats m 0 c).after 4 t) = _
  rw [after0_4]
  funext y
  obtain ⟨ch, q, rfl⟩ : ∃ (ch : Fin 3) (q : Fin 65536), y = ix2 ch q := ⟨y 0, y 1, eq_ix2 y⟩
  show out0_4 (iblk m c 0 t) (iblk m c 1 t) (iblk m c 2 t) (iblk m c 3 t) (ix2 ch q)
    = outT m c (((cfg0.win 4).blk t).view.emb (ix2 ch q))
  refine (point_eq _ _ _ _ ch q).trans ?_
  rw [blk4_emb t ch q, iblk1_eq m c t, iblk2_eq m c t, iblk3_eq m c t, iblk0_apply m c t, iblk0_apply m c t]
  rfl

/-- An index of the result array is in point `t`'s block iff its lane is among the point's 65536. -/
theorem mem_blk (t : Fin cfg0.N) (i : S3x16777216.Idx) :
    i ∈ ((cfg0.win 4).blk t).view.set
      ↔ ∀ a : Fin 2, win0_4.index t a * S3x65536.size a ≤ (i a).val
          ∧ (i a).val < win0_4.index t a * S3x65536.size a + S3x65536.size a := by
  show i ∈ ((View.whole main_v3).slice (win0_4.rect t)).set ↔ _
  rw [View.set_slice_whole, Rect.mem_set_unit]
  exact Iff.rfl

/-- Every index of the result array is in the block of the point that owns its lane. -/
theorem cover (i : S3x16777216.Idx) :
    ∃ t : Fin cfg0.N, (cfg0.win 4).flush t = true ∧ i ∈ ((cfg0.win 4).blk t).view.set := by
  have hi0 : (i 0).val < 3 := (i 0).isLt
  have hi1 : (i 1).val < 16777216 := (i 1).isLt
  let t : Fin cfg0.N := ⟨(i 1).val / 65536, by rw [show cfg0.N = 256 from N_0]; omega⟩
  obtain ⟨-, -, -, -, -, -, -, -, h0, h1⟩ := idx_facts t
  have ht : t.val = (i 1).val / 65536 := rfl
  refine ⟨t, flush0_4 t, ?_⟩
  rw [mem_blk]
  intro a
  match a with
  | ⟨0, _⟩ => show win0_4.index t 0 * 3 ≤ (i 0).val ∧ (i 0).val < win0_4.index t 0 * 3 + 3; rw [h0]; omega
  | ⟨1, _⟩ => show win0_4.index t 1 * 65536 ≤ (i 1).val ∧ (i 1).val < win0_4.index t 1 * 65536 + 65536; rw [h1, ht]; omega

/-- THE RESULT ARRAY OF THE CALL is the channel-major image. -/
theorem final (c : Dev nD) : (dats m 0 c).arrAt 4 cfg0.N = outT m c :=
  (dats m 0 c).arrAt_eq_of_cover 4 (outT m c) (fun t _ => flushed_eq m c t) cover

/-! ## The final transposition, and the run -/

/-- THE PROGRAM'S RESULT: the call's array transposed is the pixel-major image. -/
theorem tail_eq (c : Dev nD) :
    (Pipeline.afterTail₀ cfgs (dats m) 0 (V0 m) [hostOps1] c main_v4 : S16777216x3.Idx → EReal)
      = Mlp.image (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  have hA : (Pipeline.withArrays (cfgs 0).spec c (V0 m c) (fun w => (dats m 0 c).arrAt w (cfgs 0).N)
      (Proc.devRef .tc main_v3) : S3x16777216.Idx → EReal) = outT m c :=
    (Pipeline.withArrays_arr spec0 launch0.win.arr_inj c _ _ 4).trans (final m c)
  refine (congrArg (fun X : S3x16777216.Idx → EReal =>
    transpose S16777216x3 [1, 0] X transposes_S3x16777216_S16777216x3_1_0) hA).trans ?_
  funext i
  obtain ⟨p, ch, rfl⟩ : ∃ (p : Fin 16777216) (ch : Fin 3), i = ix2 p ch := ⟨i 0, i 1, eq_ix2 i⟩
  exact transpose_ix2_apply (outT m c) transposes_S3x16777216_S16777216x3_1_0 p ch

/-- THE RUN, READ: every weakly fair execution of the program ends with its result at the pixel-major image of the
    argument arrays, and the arguments as launched. -/
theorem run : θ_run defs (onTc (τ := τ) (main (F := Ideal))) ⟨m, fun _ => 0, ρ⟩ (fun r => ∀ c : Dev nD,
      r.2.mem ((c.tc : Thread nD τ).loc main_v4)
        = Mlp.image (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Arr

end
-- ==== Proof.lean ====
/-
  The kernel evaluates a small coordinate network — `tanh` of a 2 → 8 layer, one shared 8 → 8 `tanh` layer applied four
  times, a logistic 8 → 3 output layer — at each of 16777216 pixels, with the pixels laid along the lanes: it transposes
  the coordinates, runs 256 tiles of 65536 pixels with the weight matrices on the LEFT of every product (the two wider
  products fed bf16-narrowed operands), and transposes the result back. The reference is jnp's `sigmoid (… tanh (x @ W_inᵀ) …
  @ W_outᵀ)`, pixel-major, activations on the left of every product, the logistic function expanded into `1 / (1 + exp (−z))`.

  On the extended reals the two are one function, `Mlp.image` (Proof/Mlp.lean): narrowing to bf16 is the identity, a
  product accumulated into zeros is the plain sum, the expanded logistic is the logistic by definition, and what remains
  between the two spellings is the commutativity of the product under each sum — which holds at the infinities too, so
  the finiteness of the inputs is never used.
    * Proof/RefIsMlp.lean      — the reference's result is `Mlp.image`, layer by layer over its generated read-back;
    * Proof/KernelPayload.lean — an entry of the tile the body stores is the network at that lane's pixel;
    * Proof/KernelArray.lean   — the 256 stored tiles cover the result array, which transposed is `Mlp.image`.
  The three frames are the generated ones (the reference's is its generated run with the result dropped); the
  idealization rewrote nothing, so `preserves` is trivial.
-/
import proofs.«127684_j55439437857087_2_alg».proof.Defs
import proofs.«127684_j55439437857087_2_alg».proof.Proof.Gen.Kernel
import proofs.«127684_j55439437857087_2_alg».proof.Proof.Gen.Kernel.Skeleton
import proofs.«127684_j55439437857087_2_alg».proof.Proof.Gen.Kernel.Launch
import proofs.«127684_j55439437857087_2_alg».proof.Proof.Gen.Kernel.Points
import proofs.«127684_j55439437857087_2_alg».proof.Proof.Gen.Kernel.Frame
import proofs.«127684_j55439437857087_2_alg».proof.Proof.Gen.KernelIdeal
import proofs.«127684_j55439437857087_2_alg».proof.Proof.Gen.KernelIdeal.Skeleton
import proofs.«127684_j55439437857087_2_alg».proof.Proof.Gen.KernelIdeal.Launch
import proofs.«127684_j55439437857087_2_alg».proof.Proof.Gen.KernelIdeal.Points
import proofs.«127684_j55439437857087_2_alg».proof.Proof.Gen.KernelIdeal.Frame
import proofs.«127684_j55439437857087_2_alg».proof.Proof.Gen.ReferenceIdeal
import proofs.«127684_j55439437857087_2_alg».proof.Proof.Gen.ReferenceIdeal.Run
import proofs.«127684_j55439437857087_2_alg».proof.Proof.Gen.ReferenceIdeal.Read
import proofs.«127684_j55439437857087_2_alg».proof.Proof.Gen.Pre_finite_inputs
import proofs.«127684_j55439437857087_2_alg».proof.Proof.Mlp
import proofs.«127684_j55439437857087_2_alg».proof.Proof.RefIsMlp
import proofs.«127684_j55439437857087_2_alg».proof.Proof.KernelPayload
import proofs.«127684_j55439437857087_2_alg».proof.Proof.KernelArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments both programs end with the image of the coordinate network of those
    arguments: the kernel by its tiles (`Arr.run`), the reference by its layers (`RefValue.ref_eq`). -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
